-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x5 : Shape := ⟨2, ![3200000, 5]⟩
abbrev S2x3200000 : Shape := ⟨2, ![2, 3200000]⟩
abbrev S100000 : Shape := ⟨1, ![100000]⟩
abbrev S_ : Shape := ⟨0, ![]⟩

class Facts : Prop where
  bcast_S_S3200000x5 : S_.BroadcastsInDim S3200000x5 (![] : Fin 0 → Fin S3200000x5.rank)
  reducesTo_S3200000x5_S_d0_1 : S3200000x5.ReducesTo [0, 1] S_
  h_S_ : 0 < S_.numel

variable [Facts]

def fn {F : FTy → Type} [FloatOps F] (main_arg0 : FVec F S3200000x5 .f32) (main_arg1 : IVec S2x3200000 32) (main_arg2 : IVec S100000 32) : IVec S_ 1 :=
  let main_v0 : FVec F S3200000x5 .f32 := Host.absf main_arg0
  let main_cst : FVec F S_ .f32 := constant S_ .f32 0x7F800000#32
  let main_v1 : FVec F S3200000x5 .f32 := broadcastInDim S3200000x5 ![] bcast_S_S3200000x5 main_cst
  let main_v2 : IVec S3200000x5 1 := cmpf .olt main_v0 main_v1
  let main_c : IVec S_ 1 := constantI S_ 1 1#1
  let main_v3 : IVec S_ 1 := (fun x v => Host.reduce IntOp.andi x v reducesTo_S3200000x5_S_d0_1 h_S_) main_v2 main_c
  main_v3
-- ==== Kernel.lean ====
abbrev S3200000x5 : Shape := ⟨2, ![3200000, 5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩
abbrev S1x1 : Shape := ⟨2, ![1, 1]⟩
abbrev S6400x5 : Shape := ⟨2, ![6400, 5]⟩
abbrev S6400x2 : Shape := ⟨2, ![6400, 2]⟩
abbrev S6400x1 : Shape := ⟨2, ![6400, 1]⟩
abbrev S6400x4 : Shape := ⟨2, ![6400, 4]⟩
abbrev S6400 : Shape := ⟨1, ![6400]⟩
abbrev S1 : Shape := ⟨1, ![1]⟩

abbrev nBuf : Space → Nat
  | .hbm => 49
  | .vmem => 8
  | .smem => 0
  | _ => 0

abbrev bufTy : (tb : Table) → Fin (tcTables nBuf tb) → BufTy
  | .hbm, ⟨0, _⟩ => ⟨S3200000x5, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000, .i32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S3200000, .i1⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S3200000, .i1⟩
  | .hbm, ⟨40, _⟩ => ⟨S3200000, .f32⟩
  | .hbm, ⟨41, _⟩ => ⟨S3200000x1, .f32⟩
  | .hbm, ⟨42, _⟩ => ⟨S3200000x1, .f32⟩
  | .hbm, ⟨43, _⟩ => ⟨S3200000x2, .f32⟩
  | .hbm, ⟨44, _⟩ => ⟨S3200000x5, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S6400x5, .f32⟩
  | .local _ .vmem, ⟨1, _⟩ => ⟨S6400x5, .f32⟩
  | .local _ .vmem, ⟨2, _⟩ => ⟨S6400x2, .f32⟩
  | .local _ .vmem, ⟨3, _⟩ => ⟨S6400x2, .f32⟩
  | .local _ .vmem, ⟨4, _⟩ => ⟨S6400x5, .f32⟩
  | .local _ .vmem, ⟨5, _⟩ => ⟨S6400x5, .f32⟩
  | .local _ .vmem, ⟨6, _⟩ => ⟨S1x1, .f32⟩
  | .local _ .vmem, ⟨7, _⟩ => ⟨S1x1, .f32⟩
  | _, _ => ⟨S3200000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x1_S3200000x1_S3200000x2_d1 : Shape.Concatenates [S3200000x1, S3200000x1] S3200000x2 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6400x5_S6400x5_0_0 : ∀ a, (![0, 0] : Fin 2 → Nat) a + S6400x5.size a ≤ S6400x5.size a
  h_S6400x5 : 0 < S6400x5.numel
  inb_S6400x2_S6400x1_0_0 : ∀ a, (![0, 0] : Fin 2 → Nat) a + S6400x1.size a ≤ S6400x2.size a
  h_S6400x1 : 0 < S6400x1.numel
  shapeCasts_S6400x1_S6400x1 : S6400x1.ShapeCasts S6400x1
  inb_S6400x2_S6400x1_0_1 : ∀ a, (![0, 1] : Fin 2 → Nat) a + S6400x1.size a ≤ S6400x2.size a
  iota_S6400x5_d1_w32 : S6400x5.Iotas .tc 32 [1]
  natLt_1_32 : 1 < 32
  broadcasts_S6400x1_S6400x5 : S6400x1.Broadcasts S6400x5
  slices_S6400x5_o0_1_S6400x4 : S6400x5.Slices ![0, 1] S6400x4
  reduces_S6400x4_S6400 : S6400x4.Reduces [1] S6400
  shapeCasts_S6400_S6400x1 : S6400.ShapeCasts S6400x1
  reduces_S6400x1_S1 : S6400x1.Reduces [0] S1
  shapeCasts_S1_S1x1 : S1.ShapeCasts S1x1
  shapeCasts_S1x1_S_ : S1x1.ShapeCasts S_
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x5.size a ≤ S3200000x5.size a
  hwx0_0 : ∀ i : grid0.Coords, EltTy.bits .f32 = 32 ∨ (Rect.block (s := S3200000x5) S6400x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x2.size a ≤ S3200000x2.size a
  hwx0_1 : ∀ i : grid0.Coords, EltTy.bits .f32 = 32 ∨ (Rect.block (s := S3200000x2) S6400x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x5.size a ≤ S3200000x5.size a
  hwx0_2 : ∀ i : grid0.Coords, EltTy.bits .f32 = 32 ∨ (Rect.block (s := S3200000x5) S6400x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S6400x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S6400x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S6400x5.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3200000x5 : Shape := ⟨2, ![3200000, 5]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S5 : Shape := ⟨1, ![5]⟩
abbrev S1x5 : Shape := ⟨2, ![1, 5]⟩
abbrev S3200000x4 : Shape := ⟨2, ![3200000, 4]⟩

abbrev nBuf : Space → Nat
  | .hbm => 80
  | .vmem => 0
  | .smem => 0
  | _ => 0

abbrev bufTy : (tb : Table) → Fin (tcTables nBuf tb) → BufTy
  | .hbm, ⟨0, _⟩ => ⟨S3200000x5, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000, .i32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S3200000, .i1⟩
  | .hbm, ⟨32, _⟩ => ⟨S3200000, .f32⟩
  | .hbm, ⟨33, _⟩ => ⟨S3200000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S3200000, .i1⟩
  | .hbm, ⟨41, _⟩ => ⟨S3200000, .f32⟩
  | .hbm, ⟨42, _⟩ => ⟨S3200000x1, .f32⟩
  | .hbm, ⟨43, _⟩ => ⟨S5, .i32⟩
  | .hbm, ⟨44, _⟩ => ⟨S_, .i32⟩
  | .hbm, ⟨45, _⟩ => ⟨S5, .i32⟩
  | .hbm, ⟨46, _⟩ => ⟨S5, .i1⟩
  | .hbm, ⟨47, _⟩ => ⟨S5, .f32⟩
  | .hbm, ⟨48, _⟩ => ⟨S_, .i32⟩
  | .hbm, ⟨49, _⟩ => ⟨S5, .i32⟩
  | .hbm, ⟨50, _⟩ => ⟨S5, .i1⟩
  | .hbm, ⟨51, _⟩ => ⟨S5, .f32⟩
  | .hbm, ⟨52, _⟩ => ⟨S_, .f32⟩
  | .hbm, ⟨53, _⟩ => ⟨S3200000x1, .f32⟩
  | .hbm, ⟨54, _⟩ => ⟨S3200000x1, .f32⟩
  | .hbm, ⟨55, _⟩ => ⟨S1x5, .f32⟩
  | .hbm, ⟨56, _⟩ => ⟨S3200000x5, .f32⟩
  | .hbm, ⟨57, _⟩ => ⟨S3200000x5, .f32⟩
  | .hbm, ⟨58, _⟩ => ⟨S3200000x5, .f32⟩
  | .hbm, ⟨59, _⟩ => ⟨S3200000x5, .f32⟩
  | .hbm, ⟨60, _⟩ => ⟨S3200000x4, .f32⟩
  | .hbm, ⟨61, _⟩ => ⟨S_, .f32⟩
  | .hbm, ⟨62, _⟩ => ⟨S3200000x4, .f32⟩
  | .hbm, ⟨63, _⟩ => ⟨S3200000x4, .f32⟩
  | .hbm, ⟨64, _⟩ => ⟨S_, .f32⟩
  | .hbm, ⟨65, _⟩ => ⟨S3200000, .f32⟩
  | .hbm, ⟨66, _⟩ => ⟨S3200000x1, .f32⟩
  | .hbm, ⟨67, _⟩ => ⟨S3200000x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S3200000x1, .f32⟩
  | .hbm, ⟨72, _⟩ => ⟨S3200000x1, .f32⟩
  | .hbm, ⟨73, _⟩ => ⟨S1x5, .f32⟩
  | .hbm, ⟨74, _⟩ => ⟨S3200000x5, .f32⟩
  | .hbm, ⟨75, _⟩ => ⟨S3200000x5, .f32⟩
  | .hbm, ⟨76, _⟩ => ⟨S3200000x5, .f32⟩
  | .hbm, ⟨77, _⟩ => ⟨S3200000x5, .f32⟩
  | .hbm, ⟨78, _⟩ => ⟨S_, .f32⟩
  | .hbm, ⟨79, _⟩ => ⟨S_, .f32⟩
  | _, _ => ⟨S3200000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_cst : Ref sig .tc := ⟨.hbm, 61, rfl⟩
abbrev main_call0_v0 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S5 : S_.BroadcastsInDim S5 (![] : Fin 0 → Fin S5.rank)
  bcast_S_S3200000x1 : S_.BroadcastsInDim S3200000x1 (![] : Fin 0 → Fin S3200000x1.rank)
  bcast_S5_S1x5_1 : S5.BroadcastsInDim S1x5 (![1] : Fin 1 → Fin S1x5.rank)
  bcast_S3200000x1_S3200000x5_0_1 : S3200000x1.BroadcastsInDim S3200000x5 (![0, 1] : Fin 2 → Fin S3200000x5.rank)
  bcast_S1x5_S3200000x5_0_1 : S1x5.BroadcastsInDim S3200000x5 (![0, 1] : Fin 2 → Fin S3200000x5.rank)
  slices_S3200000x5_S3200000x4_0_1 : S3200000x5.Slices ![0, 1] S3200000x4
  bcast_S_S3200000x4 : S_.BroadcastsInDim S3200000x4 (![] : Fin 0 → Fin S3200000x4.rank)
  reducesTo_S3200000x4_S3200000_d1 : S3200000x4.ReducesTo [1] S3200000
  h_S_ : 0 < S_.numel
  reducesTo_S3200000x1_S_d0_1 : S3200000x1.ReducesTo [0, 1] S_
  gather_S100000_S3200000x1_S3200000_n_0_n_n_0_1_1_wf : GatherDims.WF S100000 S3200000x1 S3200000 [] [0] [] [0] [] 1 ![1]

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

class Facts : Prop extends Facts₀ where

variable [Facts]
-- ==== Proof.Pieces.lean ====
/-
  What one run of the body leaves in each buffer, as a value of what it loaded.

  The body loads the point's block of logits `x0` ([6400, 5]) and the two columns of the point's block of marks `x1`
  ([6400, 2]: column 0 the first mark, column 1 the second). It leaves
    * in the first result's buffer the penalised block (the same at every point);
    * in the carried accumulator, and in the second result's buffer, the accumulator's earlier contents plus the
      tile's violation sum — at the first point the earlier contents are the zero the body has just stored there and
      read back, at every later point what the point before left.
  Stated for any float instance: nothing here looks inside the arithmetic.
-/
import proofs.«168607_j33887291965649_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zeroOffsets : (![0, 0] : Fin 2 → Nat) = fun _ => 0 := funext fun a => by fin_cases a <;> rfl

/-- Column 0 of a block of marks, as the body's first column load reads it. -/
abbrev firstMark (x1 : Vec F S6400x2 .f32) : Vec F S6400x1 .f32 :=
  View.ld x1 (Rect.unit (s := S6400x2) ![0, 0] S6400x1.size inb_S6400x2_S6400x1_0_0)

/-- Column 1 of a block of marks, as the body's second column load reads it. -/
abbrev secondMark (x1 : Vec F S6400x2 .f32) : Vec F S6400x1 .f32 :=
  View.ld x1 (Rect.unit (s := S6400x2) ![0, 1] S6400x1.size inb_S6400x2_S6400x1_0_1)

/-- The penalised block: the one store into the first result's buffer. -/
abbrev blockOut (x0 : Vec F S6400x5 .f32) (x1 : Vec F S6400x2 .f32) : Vec F S6400x5 .f32 :=
  k0_pay1 (k0_pay4 (secondMark x1)) (k0_pay5 (F := F)) (k0_pay6 x0 (firstMark x1))

/-- The accumulator after the body: its earlier contents plus the tile's violation sum. -/
abbrev accOut (x0 : Vec F S6400x5 .f32) (x1 : Vec F S6400x2 .f32) (acc : Vec F S1x1 .f32) : Vec F S1x1 .f32 :=
  k0_pay7 x0 (firstMark x1) acc

/-! ## Later points (the accumulator is not reset) -/

theorem later_out (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S6400x5 .f32) (x1 : Vec F S6400x2 .f32) (xs0 : Vec F S1x1 .f32) :
    out0_B_2 c i arg1 harg1 arg2 harg2 arg3 harg3 arg4 harg4 arg5 harg5 hc0 x0 x1 xs0 = blockOut x0 x1 := by
  unfold out0_B_2
  rw [View.read_writes_eq_canon _ _ _ (cover0_B_2 c i arg1 harg1 arg2 harg2 arg3 harg3 arg4 harg4 arg5 harg5 hc0 x0 x1 xs0)]
  unfold kernelRun0_B
  dsimp only
  sl_unfold_words
  rw [View.canon_unit_zero (S := S6400x5) zeroOffsets]
  simp only [View.readAt_eq_ld, harg1.read_unread, harg2.read_unread, View.ld_unit_zero (S := S6400x5) zeroOffsets]

theorem later_acc (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S6400x5 .f32) (x1 : Vec F S6400x2 .f32) (xs0 : Vec F S1x1 .f32) :
    sout0_B_0 c i arg1 harg1 arg2 harg2 arg3 harg3 arg4 harg4 arg5 harg5 hc0 x0 x1 xs0 = accOut x0 x1 xs0 := by
  unfold sout0_B_0
  rw [View.read_writes_eq_canon _ _ _ (scover0_B_0 c i arg1 harg1 arg2 harg2 arg3 harg3 arg4 harg4 arg5 harg5 hc0 x0 x1 xs0)]
  unfold kernelRun0_B
  dsimp only
  sl_unfold_words
  rw [View.canon_unit_zero (S := S1x1) zeroOffsets]
  simp only [View.readAt_eq_ld, harg1.read_unread, harg2.read_unread, harg5.read_unread, View.ld_unit_zero (S := S6400x5) zeroOffsets, View.ld_unit_zero (S := S1x1) zeroOffsets]

theorem later_viol (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S6400x5 .f32) (x1 : Vec F S6400x2 .f32) (xs0 : Vec F S1x1 .f32) :
    out0_B_3 c i arg1 harg1 arg2 harg2 arg3 harg3 arg4 harg4 arg5 harg5 hc0 x0 x1 xs0 = accOut x0 x1 xs0 := by
  unfold out0_B_3
  rw [View.read_writes_eq_canon _ _ _ (cover0_B_3 c i arg1 harg1 arg2 harg2 arg3 harg3 arg4 harg4 arg5 harg5 hc0 x0 x1 xs0)]
  unfold kernelRun0_B
  dsimp only
  sl_unfold_words
  rw [View.canon_unit_zero (S := S1x1) zeroOffsets, View.readCov_unit_zero (S := S1x1) _ zeroOffsets]
  simp only [View.readAt_eq_ld, harg1.read_unread, harg2.read_unread, harg5.read_unread, View.ld_unit_zero (S := S6400x5) zeroOffsets, View.ld_unit_zero (S := S1x1) zeroOffsets]

/-! ## The first point (the accumulator is zeroed first) -/

theorem first_out (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S6400x5 .f32) (x1 : Vec F S6400x2 .f32) :
    out0_A_2 c i arg1 harg1 arg2 harg2 arg3 harg3 arg4 harg4 arg5 harg5 hc0 x0 x1 = blockOut x0 x1 := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  rw [View.canon_unit_zero (S := S6400x5) zeroOffsets]
  simp only [View.readAt_eq_ld, harg1.read_unread, harg2.read_unread, View.ld_unit_zero (S := S6400x5) zeroOffsets]

theorem first_acc (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S6400x5 .f32) (x1 : Vec F S6400x2 .f32) :
    sout0_A_0 c i arg1 harg1 arg2 harg2 arg3 harg3 arg4 harg4 arg5 harg5 hc0 x0 x1 = accOut x0 x1 (k0_pay2 (F := F)) := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  rw [View.canon_cons_unit_zero (S := S1x1) zeroOffsets, View.readCov_unit_zero (S := S1x1) _ zeroOffsets]
  simp only [View.readAt_eq_ld, harg1.read_unread, harg2.read_unread, View.ld_unit_zero (S := S6400x5) zeroOffsets]

theorem first_viol (c : Dev nD) (i : grid0.Coords) (arg1 : Memref sig .tc .vmem S6400x5 .f32) (harg1 : arg1.IsWhole) (arg2 : Memref sig .tc .vmem S6400x2 .f32) (harg2 : arg2.IsWhole) (arg3 : Memref sig .tc .vmem S6400x5 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S6400x5 .f32) (x1 : Vec F S6400x2 .f32) :
    out0_A_3 c i arg1 harg1 arg2 harg2 arg3 harg3 arg4 harg4 arg5 harg5 hc0 x0 x1 = accOut x0 x1 (k0_pay2 (F := F)) := by
  unfold out0_A_3
  rw [View.read_writes_eq_canon _ _ _ (cover0_A_3 c i arg1 harg1 arg2 harg2 arg3 harg3 arg4 harg4 arg5 harg5 hc0 x0 x1)]
  unfold kernelRun0_A
  dsimp only
  sl_unfold_words
  rw [View.canon_unit_zero (S := S1x1) zeroOffsets, View.readCov_cons_toLoadRect, View.readCov_cons_toLoadRect]
  simp only [View.readAt_eq_ld, harg1.read_unread, harg2.read_unread, View.ld_unit_zero (S := S6400x5) zeroOffsets]

end Cert.KernelIdeal.Body

end
-- ==== Proof.Spec.lean ====
/-
  The mathematics both programs compute, stated once over the extended reals, with no program in sight.

  Every edge e carries five logits x(e, ·) and two marks a(e), b(e) (each 0 or 1 in practice; nothing here needs that).
  The first result is, entry by entry,
      entry = (x - (100 · a) · [c ≥ 1]) - (50 · b) · [c ≥ 2],
  where [c ≥ k] is the column indicator. The second result is the mean over all edges of the edge's violation,
      a · Σ_{c = 1..4} max (x(e,c) - (100 · a) · [c ≥ 1], 0),
  that is (0 + Σ_e violation e) / 3200000.

  The only law the two programs differ by is the grouping of that one long sum: the edges summed 6400 at a time and the
  partial sums accumulated, against the edges summed all at once. Over the extended reals addition is commutative and
  associative with no side condition, so the regrouping (`sum_tiles`, `tiles_total`) needs no finiteness.
-/
import Idealize.ShloMosaic.PureOps.Ideal
import Idealize.ShloMosaic.PureOps.Ideal.Laws
import Idealize.ShloMosaic.Lib.ValueIdx

noncomputable section

open scoped BigOperators

namespace Cert.BondPenalty

open Idealize.ShloMosaic Idealize.ShloMosaic.ValueIdx

/-- The column indicator [c ≥ k] as an extended real: the truth bit of the signed compare of the column number against
    `k`, read as a natural number (0 or 1). -/
def colFlag (k : BitVec 32) (c : Fin 5) : EReal :=
  (((IntOp.cmpi .sge (BitVec.ofNat 32 c.val) k).toNat : ℝ) : EReal)

/-- A truth bit widened to 32 bits and read SIGNED is the bit read as a natural number: widening puts zeros above it, so
    the sign bit of the wide word is clear. -/
theorem bit_signed_eq_nat : ∀ b : BitVec 1, (b.setWidth 32).toInt = (b.toNat : ℤ) := by decide

/-- An entry after the first penalty: x - (100 · a) · [c ≥ 1]. -/
def afterFirst (x a : EReal) (c : Fin 5) : EReal :=
  x - Ideal.ofBits .f32 0x42C80000#32 * a * colFlag 1#32 c

/-- An entry of the first result: the second penalty on top of the first, (…) - (50 · b) · [c ≥ 2]. -/
def entry (x a b : EReal) (c : Fin 5) : EReal :=
  afterFirst x a c - Ideal.ofBits .f32 0x42480000#32 * b * colFlag 2#32 c

/-- The k-th of the four trailing columns is column k + 1. -/
def tailCol (k : Fin 4) : Fin 5 := ⟨k.val + 1, Nat.succ_lt_succ k.isLt⟩

/-- One edge's violation: its mark times the sum over the four trailing columns of the positive part of the entry after
    the first penalty. -/
def edgeViolation (x : Fin 5 → EReal) (a : EReal) : EReal :=
  a * ∑ k : Fin 4, max (afterFirst (x (tailCol k)) a (tailCol k)) 0

/-! ## The two results as functions of the arrays -/

/-- The first result: every entry of the [3200000, 5] table penalised by its edge's two marks. -/
def penalised (x : (⟨2, ![3200000, 5]⟩ : Shape).Idx → EReal) (a b : (⟨1, ![3200000]⟩ : Shape).Idx → EReal) :
    (⟨2, ![3200000, 5]⟩ : Shape).Idx → EReal :=
  fun i => entry (x i) (a (ix1 (i 0))) (b (ix1 (i 0))) (i 1)

/-- Edge e's violation read off the arrays. -/
def violationAt (x : (⟨2, ![3200000, 5]⟩ : Shape).Idx → EReal) (a : (⟨1, ![3200000]⟩ : Shape).Idx → EReal)
    (e : Fin 3200000) : EReal :=
  edgeViolation (fun c => x (ix2 e c)) (a (ix1 e))

/-- The same for any natural number, zero past the last edge: the form sums over ranges are taken in. -/
def violationN (x : (⟨2, ![3200000, 5]⟩ : Shape).Idx → EReal) (a : (⟨1, ![3200000]⟩ : Shape).Idx → EReal)
    (e : ℕ) : EReal :=
  if h : e < 3200000 then violationAt x a ⟨e, h⟩ else 0

theorem violationN_of_lt (x : (⟨2, ![3200000, 5]⟩ : Shape).Idx → EReal) (a : (⟨1, ![3200000]⟩ : Shape).Idx → EReal)
    (e : ℕ) (h : e < 3200000) : violationN x a e = violationAt x a ⟨e, h⟩ := dif_pos h

/-- The second result: the zero word plus the sum of all edges' violations, divided by the number of edges (the f32
    word of 3200000.0). -/
def meanViolation (x : (⟨2, ![3200000, 5]⟩ : Shape).Idx → EReal) (a : (⟨1, ![3200000]⟩ : Shape).Idx → EReal) : EReal :=
  Ideal.div (Ideal.ofBits .f32 0x00000000#32 + ∑ e : Fin 3200000, violationAt x a e) (Ideal.ofBits .f32 0x4A435000#32)

/-! ## Regrouping the long sum -/

/-- A sum over Q·w consecutive naturals is the sum over Q tiles of w: position s·w + r is lane r of tile s. -/
theorem sum_tiles {M : Type*} [AddCommMonoid M] (f : ℕ → M) (w : ℕ) :
    ∀ Q : ℕ, ∑ e ∈ Finset.range (Q * w), f e = ∑ s ∈ Finset.range Q, ∑ r ∈ Finset.range w, f (s * w + r)
  | 0 => by simp
  | Q + 1 => by
    rw [Nat.succ_mul, Finset.sum_range_add, Finset.sum_range_succ, sum_tiles f w Q]

/-- The tile of 6400 edges number s: the sum of its edges' violations. -/
def tileViolation (x : (⟨2, ![3200000, 5]⟩ : Shape).Idx → EReal) (a : (⟨1, ![3200000]⟩ : Shape).Idx → EReal)
    (s : ℕ) : EReal :=
  ∑ r ∈ Finset.range 6400, violationN x a (s * 6400 + r)

/-- The 500 tiles' sums add up to the sum over all edges. -/
theorem tiles_total (x : (⟨2, ![3200000, 5]⟩ : Shape).Idx → EReal) (a : (⟨1, ![3200000]⟩ : Shape).Idx → EReal) :
    ∑ s ∈ Finset.range 500, tileViolation x a s = ∑ e : Fin 3200000, violationAt x a e := by
  unfold tileViolation
  rw [← sum_tiles (violationN x a) 6400 500, ← Fin.sum_univ_eq_sum_range]
  exact Finset.sum_congr rfl fun e _ => violationN_of_lt x a e.val e.isLt

end Cert.BondPenalty

end
-- ==== Proof.Payload.lean ====
/-
  The body's arithmetic read at one entry, over the extended reals.

  At row r of a block and column c the stored value is the entry law of the specification applied to the logit at (r, c)
  and the row's two marks; the accumulator's new value is its old value plus the sum over the block's 6400 rows of the
  row's violation. The column indicator the body builds (the lane number compared with 1 or 2, the truth bit widened to
  32 bits and converted as a signed integer) is the specification's indicator: a widened truth bit is never negative.
-/
import proofs.«168607_j33887291965649_1_alg».proof.Proof.Gen.KernelIdeal.Skeleton
import proofs.«168607_j33887291965649_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Arith

open Cert.KernelIdeal Cert.KernelIdeal.Gen Cert.BondPenalty

/-- The body's column indicator at (r, c) is [c ≥ k]. -/
theorem flag_apply (k : BitVec 32) (r : Fin 6400) (c : Fin 5) :
    (sitofp .f32 (extui 32 (cmpi .sge (iota .tc S6400x5 32 [1] iota_S6400x5_d1_w32) (broadcast S6400x5 k)) natLt_1_32)
      : FVec Ideal S6400x5 .f32) (ix2 r c) = colFlag k c := by
  show (((((IntOp.cmpi .sge (iota .tc S6400x5 32 [1] iota_S6400x5_d1_w32 (ix2 r c)) k).setWidth 32).toInt : ℝ)) : EReal) = _
  rw [iota_single_apply, bit_signed_eq_nat, Int.cast_natCast]
  rfl

/-- A column [6400, 1] spread across the five lanes reads, at (r, c), the column's row r. -/
theorem spread_apply (v : FVec Ideal S6400x1 .f32) (r : Fin 6400) (c : Fin 5) :
    broadcastTo S6400x5 v broadcasts_S6400x1_S6400x5 (ix2 r c) = v (ix2 r 0) :=
  broadcastTo_apply v broadcasts_S6400x1_S6400x5 (ix2 r c) (ix2 r 0) (fun a => match a with
    | ⟨0, _⟩ => rfl
    | ⟨1, _⟩ => rfl)

/-- The entry after the first penalty. -/
theorem afterFirst_apply (v3 : Vec Ideal S6400x5 .f32) (v4 : Vec Ideal S6400x1 .f32) (r : Fin 6400) (c : Fin 5) :
    k0_pay6 (F := Ideal) v3 v4 (ix2 r c) = afterFirst (v3 (ix2 r c)) (v4 (ix2 r 0)) c := by
  unfold k0_pay6 k0_pay3 afterFirst
  dsimp only
  rw [subf_apply, mulf_apply, flag_apply, spread_apply, mulf_apply, broadcast_apply, shapeCast_self]
  rfl

/-- The stored entry: the second penalty on top. -/
theorem stored_apply (v7 : FVec Ideal S6400x1 .f32) (v21 : FVec Ideal S6400x5 .f32) (r : Fin 6400) (c : Fin 5) :
    k0_pay1 (F := Ideal) v7 (k0_pay5 (F := Ideal)) v21 (ix2 r c)
      = v21 (ix2 r c) - Ideal.ofBits .f32 0x42480000#32 * v7 (ix2 r 0) * colFlag 2#32 c := by
  unfold k0_pay1 k0_pay5
  dsimp only
  rw [subf_apply, mulf_apply, flag_apply, spread_apply, mulf_apply, broadcast_apply]
  rfl

/-- The accumulator block [1, 1] has one index. -/
theorem only_index (i : S1x1.Idx) : i = ix2 (0 : Fin 1) (0 : Fin 1) := by
  funext a
  match a with
  | ⟨0, _⟩ => exact Fin.ext (Nat.lt_one_iff.mp (i 0).isLt)
  | ⟨1, _⟩ => exact Fin.ext (Nat.lt_one_iff.mp (i 1).isLt)

/-- The lane sum over the four trailing columns, at row r. -/
theorem rowSum_apply (v : FVec Ideal S6400x4 .f32) (r : Fin 6400) :
    multiReduction .add [1] S6400 v 0x00000000#32 reduces_S6400x4_S6400 (.inl rfl) rfl (ix1 r) = ∑ k : Fin 4, v (ix2 r k) := by
  refine (Ideal.multiReduction_add_single v 0x00000000#32 reduces_S6400x4_S6400 (.inl rfl) rfl (ix1 r)).trans ?_
  refine Finset.sum_congr rfl fun k _ => congrArg v (funext fun a => Fin.ext ?_)
  match a with
  | ⟨0, _⟩ => rfl
  | ⟨1, _⟩ => rfl

/-- The sum down the 6400 rows of a column. -/
theorem colSum_apply (v : FVec Ideal S6400x1 .f32) :
    multiReduction .add [0] S1 v 0x00000000#32 reduces_S6400x1_S1 (.inl rfl) rfl (ix1 (0 : Fin 1)) = ∑ r : Fin 6400, v (ix2 r 0) := by
  refine (Ideal.multiReduction_add_single v 0x00000000#32 reduces_S6400x1_S1 (.inl rfl) rfl (ix1 (0 : Fin 1))).trans ?_
  refine Finset.sum_congr rfl fun r _ => congrArg v (funext fun a => Fin.ext ?_)
  match a with
  | ⟨0, _⟩ => rfl
  | ⟨1, _⟩ => rfl

/-- The trailing columns of a block: column k of the slice is column k + 1 of the block. -/
theorem tail_apply (v : FVec Ideal S6400x5 .f32) (r : Fin 6400) (k : Fin 4) :
    extractStridedSlice S6400x4 ![0, 1] v slices_S6400x5_o0_1_S6400x4 (ix2 r k) = v (ix2 r (tailCol k)) :=
  extractStridedSlice_apply ![0, 1] v slices_S6400x5_o0_1_S6400x4 (ix2 r k) (ix2 r (tailCol k)) (fun a => match a with
    | ⟨0, _⟩ => by show r.val = 0 + r.val; omega
    | ⟨1, _⟩ => by show k.val + 1 = 1 + k.val; omega)

/-- The accumulator after the body: what it held plus the sum over the block's rows of the row's violation. -/
theorem accumulated_apply (v3 : Vec Ideal S6400x5 .f32) (v4 : Vec Ideal S6400x1 .f32) (v30 : Vec Ideal S1x1 .f32)
    (i : S1x1.Idx) :
    k0_pay7 (F := Ideal) v3 v4 v30 i
      = v30 i + ∑ r : Fin 6400, edgeViolation (fun c => v3 (ix2 r c)) (v4 (ix2 r 0)) := by
  obtain rfl := only_index i
  unfold k0_pay7 k0_pay3
  dsimp only
  rw [shapeCast_self, addf_apply]
  refine congrArg (v30 _ + ·) ?_
  refine (shapeCast_apply _ shapeCasts_S1_S1x1 (ix2 (0 : Fin 1) (0 : Fin 1)) (ix1 (0 : Fin 1)) ?_).trans ?_
  · rw [Shape.rowMajor_val_one, Shape.rowMajor_val_two]; rfl
  refine (colSum_apply _).trans (Finset.sum_congr rfl fun r _ => ?_)
  rw [mulf_apply, shapeCast_self]
  unfold edgeViolation
  refine congrArg (v4 (ix2 r 0) * ·) ?_
  refine (shapeCast_apply _ shapeCasts_S6400_S6400x1 (ix2 r (0 : Fin 1)) (ix1 r) ?_).trans ?_
  · rw [Shape.rowMajor_val_one, Shape.rowMajor_val_two]; show r.val = r.val * 1 + 0; omega
  refine (rowSum_apply _ r).trans (Finset.sum_congr rfl fun k _ => ?_)
  rw [maximumf_apply, broadcast_apply, tail_apply, afterFirst_apply]
  show max _ (Ideal.ofBits .f32 0x00000000#32) = _
  rw [Ideal.ofBits_zero_f32]

end Cert.KernelIdeal.Arith

end
-- ==== Proof.PointValue.lean ====
/-
  One run of the body as arithmetic on its loads, at an entry.

  With x0 the point's block of logits and x1 its block of marks (column 0 the first mark, column 1 the second), the stored
  block at (r, c) is the specification's entry of x0 (r, c) under the row's two marks, and the accumulator gains the sum over
  the block's rows of the row's violation. The accumulator's starting contents at the first point are the zero word.
-/
import proofs.«168607_j33887291965649_1_alg».proof.Proof.Pieces
import proofs.«168607_j33887291965649_1_alg».proof.Proof.Payload

noncomputable section

open scoped BigOperators
open Idealize.ShloMosaic Idealize.ShloMosaic.ValueIdx

namespace Cert.KernelIdeal.Point

open Cert.KernelIdeal Cert.KernelIdeal.Gen Cert.BondPenalty

/-- The first column load reads column 0 of the block of marks. -/
theorem firstMark_apply (x1 : Vec Ideal S6400x2 .f32) (r : Fin 6400) :
    Body.firstMark x1 (ix2 r (0 : Fin 1)) = x1 (ix2 r (0 : Fin 2)) :=
  congrArg x1 (funext fun a => Fin.ext (by
    match a with
    | ⟨0, _⟩ => show 0 + 1 * r.val = r.val; omega
    | ⟨1, _⟩ => rfl))

/-- The second column load reads column 1. -/
theorem secondMark_apply (x1 : Vec Ideal S6400x2 .f32) (r : Fin 6400) :
    Body.secondMark x1 (ix2 r (0 : Fin 1)) = x1 (ix2 r (1 : Fin 2)) :=
  congrArg x1 (funext fun a => Fin.ext (by
    match a with
    | ⟨0, _⟩ => show 0 + 1 * r.val = r.val; omega
    | ⟨1, _⟩ => rfl))

/-- The stored block at (r, c). -/
theorem blockOut_entry (x0 : Vec Ideal S6400x5 .f32) (x1 : Vec Ideal S6400x2 .f32) (r : Fin 6400) (c : Fin 5) :
    Body.blockOut x0 x1 (ix2 r c) = entry (x0 (ix2 r c)) (x1 (ix2 r (0 : Fin 2))) (x1 (ix2 r (1 : Fin 2))) c := by
  show k0_pay1 (F := Ideal) (k0_pay4 (Body.secondMark x1)) (k0_pay5 (F := Ideal)) (k0_pay6 x0 (Body.firstMark x1)) (ix2 r c) = _
  rw [Arith.stored_apply, Arith.afterFirst_apply, firstMark_apply]
  unfold k0_pay4 entry
  rw [shapeCast_self, secondMark_apply]

/-- The accumulator after the body. -/
theorem accOut_entry (x0 : Vec Ideal S6400x5 .f32) (x1 : Vec Ideal S6400x2 .f32) (acc : Vec Ideal S1x1 .f32)
    (i : S1x1.Idx) :
    Body.accOut x0 x1 acc i
      = acc i + ∑ r : Fin 6400, edgeViolation (fun c => x0 (ix2 r c)) (x1 (ix2 r (0 : Fin 2))) := by
  show k0_pay7 (F := Ideal) x0 (Body.firstMark x1) acc i = _
  rw [Arith.accumulated_apply]
  refine congrArg (acc i + ·) (Finset.sum_congr rfl fun r _ => ?_)
  rw [firstMark_apply]

/-- The zero the first point stores into the accumulator. -/
theorem zero_entry (i : S1x1.Idx) : k0_pay2 (F := Ideal) i = Ideal.ofBits .f32 0x00000000#32 := by
  unfold k0_pay2
  rw [shapeCast_self]
  rfl

end Cert.KernelIdeal.Point

end
-- ==== Proof.Arrays.lean ====
/-
  The arrays the region finds, read where the windows read them.

  The region's first operand is the table of logits itself. Its second is the [3200000, 2] table the host glued from the
  two columns of marks: column 0 is the first mark of each edge, column 1 the second — each mark the 0/1 value of "one of
  the edge's two atoms has type 4" (resp. 5), computed by the same operations, in the same order, as the reference
  computes them, so the two vectors are named here by the reference's own stages and never opened.
  Grid point t's block of either table is rows t·6400 … t·6400 + 6399.
-/
import proofs.«168607_j33887291965649_1_alg».proof.Proof.Gen.KernelIdeal.Frame
import proofs.«168607_j33887291965649_1_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ)

/-- Every window but the last moves down its table one block per grid point; the last stays on its one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The first mark of every edge, as the host computes it from the edge list and the atom types. -/
abbrev firstMarks (c : Dev nD) : (⟨1, ![3200000]⟩ : Shape).Idx → EReal :=
  Cert.ReferenceIdeal.Read.val_main_v23 (F := Ideal) (m ((c.tc : Thread nD τ).loc main_arg1)) (m ((c.tc : Thread nD τ).loc main_arg2))

/-- The second mark of every edge. -/
abbrev secondMarks (c : Dev nD) : (⟨1, ![3200000]⟩ : Shape).Idx → EReal :=
  Cert.ReferenceIdeal.Read.val_main_v30 (F := Ideal) (m ((c.tc : Thread nD τ).loc main_arg1)) (m ((c.tc : Thread nD τ).loc main_arg2))

/-- The marks table as the region finds it: the two vectors of marks laid as columns side by side. -/
theorem marks_eq (c : Dev nD) :
    (V m c main_v32 : S3200000x2.Idx → EReal)
      = concatenate S3200000x2 1
          [⟨S3200000x1, broadcastInDim S3200000x1 ![0] bcast_S3200000_S3200000x1_0 (firstMarks m c)⟩,
           ⟨S3200000x1, broadcastInDim S3200000x1 ![0] bcast_S3200000_S3200000x1_0 (secondMarks m c)⟩]
          concatenates_S3200000x1_S3200000x1_S3200000x2_d1 := by
  show StableHlo.after hostOps0 (fun b => m (c, b)) (Proc.devRef .tc main_v32) = _
  after_results_simp
  rfl

/-- Column 0 of the marks table is the first mark. -/
theorem marks_first (c : Dev nD) (e : Fin 3200000) :
    V m c main_v32 (ix2 e (0 : Fin 2)) = firstMarks m c (ix1 e) := by
  refine (congrFun (marks_eq m c) (ix2 e (0 : Fin 2))).trans ?_
  refine (concatenate_pair_apply_left (t := S3200000x2) (s₁ := S3200000x1) (s₂ := S3200000x1) (1 : Fin 2)
    (broadcastInDim S3200000x1 ![0] bcast_S3200000_S3200000x1_0 (firstMarks m c))
    (broadcastInDim S3200000x1 ![0] bcast_S3200000_S3200000x1_0 (secondMarks m c))
    concatenates_S3200000x1_S3200000x1_S3200000x2_d1
    (ix2 e (0 : Fin 2)) rfl (ix2 e (0 : Fin 1)) (fun b => match b with
      | ⟨0, _⟩ => rfl
      | ⟨1, _⟩ => rfl)).trans ?_
  exact broadcastInDim_apply _ bcast_S3200000_S3200000x1_0 _ (ix2 e (0 : Fin 1)) (ix1 e) (fun a => match a with
    | ⟨0, _⟩ => by show e.val = if (3200000 : Nat) = 1 then 0 else e.val; rw [if_neg (by decide)])

/-- Column 1 of the marks table is the second mark. -/
theorem marks_second (c : Dev nD) (e : Fin 3200000) :
    V m c main_v32 (ix2 e (1 : Fin 2)) = secondMarks m c (ix1 e) := by
  refine (congrFun (marks_eq m c) (ix2 e (1 : Fin 2))).trans ?_
  refine (concatenate_pair_apply_right (t := S3200000x2) (s₁ := S3200000x1) (s₂ := S3200000x1) (1 : Fin 2)
    (broadcastInDim S3200000x1 ![0] bcast_S3200000_S3200000x1_0 (firstMarks m c))
    (broadcastInDim S3200000x1 ![0] bcast_S3200000_S3200000x1_0 (secondMarks m c))
    concatenates_S3200000x1_S3200000x1_S3200000x2_d1
    (ix2 e (1 : Fin 2)) rfl rfl (ix2 e (0 : Fin 1)) (fun b hb => match b, hb with
      | ⟨0, _⟩, _ => rfl
      | ⟨1, _⟩, hb => absurd rfl hb) rfl).trans ?_
  exact broadcastInDim_apply _ bcast_S3200000_S3200000x1_0 _ (ix2 e (0 : Fin 1)) (ix1 e) (fun a => match a with
    | ⟨0, _⟩ => by show e.val = if (3200000 : Nat) = 1 then 0 else e.val; rw [if_neg (by decide)])

/-- Grid point t's block of logits at (r, k) is the table's row t·6400 + r, column k. -/
theorem logits_block (c : Dev nD) (t : Fin cfg0.N) (r : Fin 6400) (k : Fin 5) (h : t.val * 6400 + r.val < 3200000) :
    iblk m c 0 t (ix2 r k) = m ((c.tc : Thread nD τ).loc main_arg0) (ix2 ⟨t.val * 6400 + r.val, h⟩ k) := by
  obtain ⟨e0, e1, -⟩ := index_facts t
  rw [← V_main_arg0 m c]
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 6400 + 1 * r.val = t.val * 6400 + r.val; rw [e0]; omega
  | ⟨1, _⟩ => show win0_0.index t (1 : Fin 2) * 5 + 1 * k.val = k.val; rw [e1]; omega

/-- Grid point t's block of marks at (r, j) is the marks table's row t·6400 + r, column j. -/
theorem marks_block (c : Dev nD) (t : Fin cfg0.N) (r : Fin 6400) (j : Fin 2) (h : t.val * 6400 + r.val < 3200000) :
    iblk m c 1 t (ix2 r j) = V m c main_v32 (ix2 ⟨t.val * 6400 + r.val, h⟩ j) := by
  obtain ⟨-, -, e0, e1, -⟩ := index_facts t
  show V m c main_v32 (((cfg0.win 1).blk t).view.emb (ix2 r j)) = V m c main_v32 _
  refine congrArg (V m c main_v32) (funext fun a => Fin.ext ?_)
  match a with
  | ⟨0, _⟩ => show win0_1.index t (0 : Fin 2) * 6400 + 1 * r.val = t.val * 6400 + r.val; rw [e0]; omega
  | ⟨1, _⟩ => show win0_1.index t (1 : Fin 2) * 2 + 1 * j.val = j.val; rw [e1]; omega

/-- A row number inside the table: grid point t (of 500) and row r (of 6400) name row t·6400 + r < 3200000. -/
theorem row_lt (t : Fin cfg0.N) (r : Fin 6400) : t.val * 6400 + r.val < 3200000 := by
  have ht : t.val < 500 := lt_of_lt_of_eq t.isLt (show cfg0.N = 500 from N_0)
  have hr := r.isLt
  omega

end Cert.KernelIdeal.Arrays

end
-- ==== Proof.Grid.lean ====
/-
  The pipeline over its 500 grid points.

  Grid point t stages rows t·6400 … t·6400 + 6399 of the logits and of the marks, and the body leaves
    * in the first result's block the penalised rows — a block of ONE table, so the blocks, which tile the table,
      assemble to it;
    * in the accumulator the zero word plus the violation sums of tiles 0 … t (induction on t: the first point starts from
      the zero it stores, every later point from what the point before left), which the last point alone writes back as the
      [1, 1] second result.
  The tile sums of a block are the specification's, because the block's rows are the table's rows.
-/
import proofs.«168607_j33887291965649_1_alg».proof.Proof.PointValue
import proofs.«168607_j33887291965649_1_alg».proof.Proof.Arrays

noncomputable section

open scoped BigOperators
open Idealize.ShloMosaic Idealize.ShloMosaic.TcCoe Idealize.SL.Sem Idealize.ShloMosaic.ValueIdx
open Idealize.ShloMosaic.Pipeline (Dat)

namespace Cert.KernelIdeal.Grid

open Cert.KernelIdeal Cert.KernelIdeal.Gen Cert.BondPenalty

variable (m : (ℓ : Loc nD τ sig) → Buf (Elt Ideal) ℓ)

/-- The table of logits. -/
abbrev logits (c : Dev nD) : (⟨2, ![3200000, 5]⟩ : Shape).Idx → EReal := m ((c.tc : Thread nD τ).loc main_arg0)

/-- The table both programs end with as their first result. -/
abbrev table (c : Dev nD) : (⟨2, ![3200000, 5]⟩ : Shape).Idx → EReal :=
  penalised (logits m c) (Arrays.firstMarks m c) (Arrays.secondMarks m c)

/-- The stored block at point t is rows t·6400 … of the table. -/
theorem block_value (c : Dev nD) (t : Fin cfg0.N) (r : Fin 6400) (k : Fin 5) :
    Body.blockOut (iblk m c 0 t) (iblk m c 1 t) (ix2 r k)
      = table m c (ix2 ⟨t.val * 6400 + r.val, Arrays.row_lt t r⟩ k) := by
  refine (Point.blockOut_entry (iblk m c 0 t) (iblk m c 1 t) r k).trans ?_
  rw [Arrays.logits_block m c t r k (Arrays.row_lt t r), Arrays.marks_block m c t r 0 (Arrays.row_lt t r),
    Arrays.marks_block m c t r 1 (Arrays.row_lt t r), Arrays.marks_first, Arrays.marks_second]
  rfl

/-- The violation sum of point t's block is the specification's tile sum number t. -/
theorem tile_value (c : Dev nD) (t : Fin cfg0.N) :
    ∑ r : Fin 6400, edgeViolation (fun k => iblk m c 0 t (ix2 r k)) (iblk m c 1 t (ix2 r (0 : Fin 2)))
      = tileViolation (logits m c) (Arrays.firstMarks m c) t.val := by
  unfold tileViolation
  rw [← Fin.sum_univ_eq_sum_range (fun r => violationN (logits m c) (Arrays.firstMarks m c) (t.val * 6400 + r)) 6400]
  refine Finset.sum_congr rfl fun r _ => ?_
  rw [violationN_of_lt _ _ _ (Arrays.row_lt t r)]
  unfold violationAt
  rw [Arrays.marks_block m c t r 0 (Arrays.row_lt t r), Arrays.marks_first]
  exact congrArg (fun f => edgeViolation f _) (funext fun k => Arrays.logits_block m c t r k (Arrays.row_lt t r))

/-- The accumulator after point n: the zero word plus the tile sums 0 … n. -/
def running (c : Dev nD) (n : ℕ) : EReal :=
  Ideal.ofBits .f32 0x00000000#32 + ∑ s ∈ Finset.range (n + 1), tileViolation (logits m c) (Arrays.firstMarks m c) s

/-- What the body leaves in the first result's block at any point. -/
theorem out_at (c : Dev nD) (t : Fin cfg0.N) :
    (outsAt0 m c t.val t.isLt).1 = Body.blockOut (iblk m c 0 t) (iblk m c 1 t) := by
  by_cases h0 : t.val % 500 = 0
  · have hA := outsAt0_A m c t h0
    have e := Body.first_out c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)
    rw [hA]
    dsimp only
    exact e
  · have hB := outsAt0_B m c t h0
    have e := Body.later_out c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (iblk m c 0 t) (iblk m c 1 t) (outsAt0 m c (t.val - 1) (Nat.lt_of_le_of_lt (Nat.sub_le _ _) t.isLt)).2.2
    rw [hB]
    dsimp only
    exact e

/-- THE CARRIED SUM. After point n the accumulator, and the second result's staging block, hold the running sum. -/
theorem carried (c : Dev nD) : ∀ (n : ℕ) (h : n < cfg0.N),
    (∀ i, (outsAt0 m c n h).2.2 i = running m c n) ∧ (∀ i, (outsAt0 m c n h).2.1 i = running m c n)
  | 0, h => by
    have hA := outsAt0_A m c ⟨0, h⟩ rfl
    have step : ∀ i, Body.accOut (iblk m c 0 ⟨0, h⟩) (iblk m c 1 ⟨0, h⟩) (k0_pay2 (F := Ideal)) i = running m c 0 := fun i => by
      rw [Point.accOut_entry, Point.zero_entry, tile_value m c ⟨0, h⟩]
      unfold running
      rw [Finset.sum_range_one]
    refine ⟨fun i => ?_, fun i => ?_⟩
    · exact (congrFun ((congrArg (·.2.2) hA).trans
        (Body.first_acc c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩))) i).trans (step i)
    · exact (congrFun ((congrArg (·.2.1) hA).trans
        (Body.first_viol c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (iblk m c 0 ⟨0, h⟩) (iblk m c 1 ⟨0, h⟩))) i).trans (step i)
  | n + 1, h => by
    have hN : cfg0.N = 500 := N_0
    have hB : ¬(⟨n + 1, h⟩ : Fin cfg0.N).val % 500 = 0 := by dsimp only; omega
    have hB' := outsAt0_B m c ⟨n + 1, h⟩ hB
    have ih := carried c n (Nat.lt_of_succ_lt h)
    have step : ∀ i, Body.accOut (iblk m c 0 ⟨n + 1, h⟩) (iblk m c 1 ⟨n + 1, h⟩)
        (outsAt0 m c n (Nat.lt_of_succ_lt h)).2.2 i = running m c (n + 1) := fun i => by
      rw [Point.accOut_entry, ih.1 i, tile_value m c ⟨n + 1, h⟩]
      unfold running
      rw [Finset.sum_range_succ _ (n + 1), add_assoc]
    refine ⟨fun i => ?_, fun i => ?_⟩
    · exact (congrFun ((congrArg (·.2.2) hB').trans
        (Body.later_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hB ((hcond0_0 ⟨n + 1, h⟩).mp hh)) (iblk m c 0 ⟨n + 1, h⟩) (iblk m c 1 ⟨n + 1, h⟩) (outsAt0 m c n (Nat.lt_of_succ_lt h)).2.2)) i).trans (step i)
    · exact (congrFun ((congrArg (·.2.1) hB').trans
        (Body.later_viol c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => hB ((hcond0_0 ⟨n + 1, h⟩).mp hh)) (iblk m c 0 ⟨n + 1, h⟩) (iblk m c 1 ⟨n + 1, h⟩) (outsAt0 m c n (Nat.lt_of_succ_lt h)).2.2)) i).trans (step i)

/-! ## The first result: the blocks assemble to the table -/

/-- What point t writes back of the first result is block t of the table. -/
theorem flushed_out (c : Dev nD) (t : Fin cfg0.N) :
    (dats m 0 c).flushed 2 t = ((cfg0.win 2).blk t).view.read (Elt Ideal) (table m c) := by
  show (cfg0.win 2).cut (grid0.coords t) ((dats m 0 c).after 2 t) = _
  rw [after0_2, out_at m c t]
  obtain ⟨-, -, -, -, e0, e1, -⟩ := Arrays.index_facts t
  funext j
  obtain ⟨r, k, rfl⟩ : ∃ (r : Fin 6400) (k : Fin 5), j = ix2 r k := ⟨j 0, j 1, eq_ix2 j⟩
  show Body.blockOut (iblk m c 0 t) (iblk m c 1 t) (ix2 r k) = table m c (((cfg0.win 2).blk t).view.emb (ix2 r k))
  rw [block_value m c t r k]
  refine congrArg (table m c) (funext fun a => Fin.ext ?_)
  match a with
  | ⟨0, _⟩ => show t.val * 6400 + r.val = win0_2.index t (0 : Fin 2) * 6400 + 1 * r.val; rw [e0]; omega
  | ⟨1, _⟩ => show k.val = win0_2.index t (1 : Fin 2) * 5 + 1 * k.val; rw [e1]; omega

/-- An index of the table is in point t's block iff each coordinate is in the block's range on its axis. -/
theorem mem_out_block (t : Fin cfg0.N) (i : S3200000x5.Idx) :
    i ∈ ((cfg0.win 2).blk t).view.set ↔ ∀ a : Fin 2, win0_2.index t a * S6400x5.size a ≤ (i a).val
      ∧ (i a).val < win0_2.index t a * S6400x5.size a + S6400x5.size a := by
  show i ∈ ((View.whole main_v33_0).slice (win0_2.rect t)).set ↔ _
  rw [View.set_slice_whole, Rect.mem_set_unit]
  exact Iff.rfl

/-- Row e of the table is in the block of point e / 6400. -/
theorem out_cover (i : S3200000x5.Idx) :
    ∃ t : Fin cfg0.N, (cfg0.win 2).flush t = true ∧ i ∈ ((cfg0.win 2).blk t).view.set := by
  have hi0 : (i 0).val < 3200000 := (i 0).isLt
  have hi1 : (i 1).val < 5 := (i 1).isLt
  have hq : (i 0).val / 6400 < 500 := by omega
  obtain ⟨-, -, -, -, e0, e1, -⟩ := Arrays.index_facts ⟨(i 0).val / 6400, lt_of_lt_of_eq hq N_0.symm⟩
  refine ⟨⟨(i 0).val / 6400, lt_of_lt_of_eq hq N_0.symm⟩, flush0_2 _, ?_⟩
  rw [mem_out_block]
  intro a
  match a with
  | ⟨0, _⟩ =>
    show win0_2.index ⟨(i 0).val / 6400, _⟩ (0 : Fin 2) * 6400 ≤ (i 0).val
      ∧ (i 0).val < win0_2.index ⟨(i 0).val / 6400, _⟩ (0 : Fin 2) * 6400 + 6400
    rw [e0]; show (i 0).val / 6400 * 6400 ≤ (i 0).val ∧ (i 0).val < (i 0).val / 6400 * 6400 + 6400; omega
  | ⟨1, _⟩ =>
    show win0_2.index ⟨(i 0).val / 6400, _⟩ (1 : Fin 2) * 5 ≤ (i 1).val
      ∧ (i 1).val < win0_2.index ⟨(i 0).val / 6400, _⟩ (1 : Fin 2) * 5 + 5
    rw [e1]; omega

/-- The first result after the run is the table. -/
theorem final_out (c : Dev nD) : (dats m 0 c).arrAt 2 cfg0.N = table m c :=
  (dats m 0 c).arrAt_eq_of_cover 2 (table m c) (fun t _ => flushed_out m c t) out_cover

/-! ## The second result: the last point writes back the whole sum -/

/-- The one write-back of the second result, at the last point, writes the running sum after point 499. -/
theorem flushed_viol (c : Dev nD) (t : Fin cfg0.N) (hf : (cfg0.win 3).flush t = true) :
    (dats m 0 c).flushed 3 t = ((cfg0.win 3).blk t).view.read (Elt Ideal) (fun _ => running m c 499) := by
  have hN : cfg0.N = 500 := N_0
  have h499 : t.val = 499 := by have := (flush0_3 t).mp hf; have := t.isLt; omega
  show (cfg0.win 3).cut (grid0.coords t) ((dats m 0 c).after 3 t) = _
  rw [after0_3]
  funext j
  show (outsAt0 m c t.val t.isLt).2.1 j = running m c 499
  rw [(carried m c t.val t.isLt).2 j, h499]

/-- The [1, 1] second result is the last point's one block. -/
theorem viol_cover (i : S1x1.Idx) :
    ∃ t : Fin cfg0.N, (cfg0.win 3).flush t = true ∧ i ∈ ((cfg0.win 3).blk t).view.set := by
  have h0 : (i 0).val < 1 := (i 0).isLt
  have h1 : (i 1).val < 1 := (i 1).isLt
  have ht : (499 : ℕ) < cfg0.N := lt_of_lt_of_eq (by omega) N_0.symm
  obtain ⟨-, -, -, -, -, -, e0, e1⟩ := Arrays.index_facts ⟨499, ht⟩
  refine ⟨⟨499, ht⟩, (flush0_3 ⟨499, ht⟩).mpr rfl, ?_⟩
  show i ∈ ((View.whole main_v33_1).slice (win0_3.rect ⟨499, ht⟩)).set
  rw [View.set_slice_whole, Rect.mem_set_unit]
  intro a
  match a with
  | ⟨0, _⟩ =>
    show win0_3.index ⟨499, ht⟩ (0 : Fin 2) * 1 ≤ (i 0).val ∧ (i 0).val < win0_3.index ⟨499, ht⟩ (0 : Fin 2) * 1 + 1
    rw [e0]; omega
  | ⟨1, _⟩ =>
    show win0_3.index ⟨499, ht⟩ (1 : Fin 2) * 1 ≤ (i 1).val ∧ (i 1).val < win0_3.index ⟨499, ht⟩ (1 : Fin 2) * 1 + 1
    rw [e1]; omega

/-- The second result's [1, 1] array after the run holds the zero word plus all 500 tile sums. -/
theorem final_viol (c : Dev nD) : (dats m 0 c).arrAt 3 cfg0.N = fun _ => running m c 499 :=
  (dats m 0 c).arrAt_eq_of_cover 3 (fun _ => running m c 499) (flushed_viol m c) viol_cover

/-- All 500 tile sums are the sum over every edge. -/
theorem running_last (c : Dev nD) :
    running m c 499 = Ideal.ofBits .f32 0x00000000#32 + ∑ e : Fin 3200000, violationAt (logits m c) (Arrays.firstMarks m c) e := by
  unfold running
  rw [tiles_total]

end Cert.KernelIdeal.Grid

end
-- ==== Proof.KernelValue.lean ====
/-
  The kernel's program, run: its two results as functions of its arguments.

  After the region the host views the [1, 1] second result as a scalar and divides it by the edge count; with the
  accumulated sum from the grid that is the mean violation. The first result is the table the blocks assembled to, and the
  argument arrays end as they began.
-/
import proofs.«168607_j33887291965649_1_alg».proof.Proof.Grid
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.BondPenalty

variable (m : (ℓ : Loc nD τ sig) → Buf (Elt Ideal) ℓ) (ρ : Dev nD → PrngReg)

/-- The scalar the program returns second: the mean violation. -/
abbrev mean (c : Dev nD) : (⟨0, ![]⟩ : Shape).Idx → EReal :=
  fun _ => meanViolation (Grid.logits m c) (Arrays.firstMarks m c)

/-- The host's two operations after the region, on the accumulated sum. -/
theorem tail_value (c : Dev nD) :
    Pipeline.afterTail₀ cfgs (dats m) 0 (V0 m) [hostOps1] c main_v35 = mean m c := by
  unfold Pipeline.afterTail₀
  show StableHlo.after hostOps1 _ (Proc.devRef .tc main_v35) = _
  after_results
  have hw : Pipeline.withArrays (cfgs 0).spec c (V0 m c) (fun w => (dats m 0 c).arrAt w (cfgs 0).N)
      (Proc.devRef .tc main_v33_1) = fun _ => Grid.running m c 499 :=
    (Pipeline.withArrays_arr spec0 launch0.win.arr_inj c _ _ 3).trans (Grid.final_viol m c)
  rw [hw]
  funext j
  show Ideal.div (Grid.running m c 499) (Ideal.ofBits .f32 0x4A435000#32) = _
  rw [Grid.running_last]
  rfl

/-- Every weakly fair execution ends with the first result at the penalised table, the second at the mean violation, and
    the arguments unchanged. -/
theorem run : θ_run defs (onTc (τ := τ) (main (F := Ideal))) ⟨m, fun _ => 0, ρ⟩ fun r => ∀ c : Dev nD,
      r.2.mem ((c.tc : Thread nD τ).loc main_v33_0) = Grid.table m c
      ∧ r.2.mem ((c.tc : Thread nD τ).loc main_v35) = mean m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (Grid.final_out m c),
      ((h c).2 main_v35 (Pipeline.mem_restRefs_of main_v35 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference computes the specification.

  Read one stage at a time at an index, the reference's first result at (e, c) is the entry law applied to the logit
  and the edge's two marks; its second result is the zero word plus the sum over every edge of the edge's violation,
  divided by the edge count. The marks stay the stages that compute them (a gather of atom types compared with 4 or 5):
  nothing here needs to know what they are.
-/
import proofs.«168607_j33887291965649_1_alg».proof.Proof.Gen.ReferenceIdeal.Read
import proofs.«168607_j33887291965649_1_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read Cert.BondPenalty

variable (x0 : (⟨S3200000x5, .f32⟩ : BufTy).Contents (Elt Ideal)) (x1 : (⟨S2x3200000, .i32⟩ : BufTy).Contents (Elt Ideal))
  (x2 : (⟨S100000, .i32⟩ : BufTy).Contents (Elt Ideal))

/-- The entry after the first penalty. -/
theorem afterFirst_ref (e : Fin 3200000) (c : Fin 5) :
    val_main_v45 (F := Ideal) x0 x1 x2 (ix2 e c)
      = afterFirst (x0 (ix2 e c)) (val_main_v23 (F := Ideal) x1 x2 (ix1 e)) c := by
  have h1 : idx_main_v24 (idx_main_v42 (ix2 e c)) = ix1 e :=
    funext fun a => Fin.ext (by match a with | ⟨0, _⟩ => rfl)
  rw [val_main_v45_apply, val_main_v44_apply, val_main_v42_apply, val_main_v40_apply, val_main_v39_apply,
    val_main_cst_apply, val_main_v24_apply, val_main_v43_apply, val_main_v41_apply, val_main_v35_apply,
    val_main_v34_apply, val_main_v32_apply, val_main_v33_apply, val_main_c_7_apply, h1]
  rfl

/-- The first result is the penalised table. -/
theorem out_ref :
    val_main_v58 (F := Ideal) x0 x1 x2
      = penalised x0 (val_main_v23 (F := Ideal) x1 x2) (val_main_v30 (F := Ideal) x1 x2) := by
  funext i
  obtain ⟨e, c, rfl⟩ : ∃ (e : Fin 3200000) (c : Fin 5), i = ix2 e c := ⟨i 0, i 1, eq_ix2 i⟩
  have h1 : idx_main_v31 (idx_main_v55 (ix2 e c)) = ix1 e :=
    funext fun a => Fin.ext (by match a with | ⟨0, _⟩ => rfl)
  rw [val_main_v58_apply, afterFirst_ref, val_main_v57_apply, val_main_v55_apply, val_main_v53_apply,
    val_main_v52_apply, val_main_cst_11_apply, val_main_v31_apply, val_main_v56_apply, val_main_v54_apply,
    val_main_v38_apply, val_main_v37_apply, val_main_v32_apply, val_main_v36_apply, val_main_c_8_apply, h1]
  rfl

/-- The positive part of a trailing column's entry after the first penalty. -/
theorem relu_ref (e : Fin 3200000) (k : Fin 4) :
    val_main_v47 (F := Ideal) x0 x1 x2 (ix2 e k)
      = max (afterFirst (x0 (ix2 e (tailCol k))) (val_main_v23 (F := Ideal) x1 x2 (ix1 e)) (tailCol k)) 0 := by
  have hi : idx_main_v46 (ix2 e k) = ix2 e (tailCol k) :=
    funext fun a => Fin.ext (by
      match a with
      | ⟨0, _⟩ => rfl
      | ⟨1, _⟩ => show 1 + k.val = k.val + 1; omega)
  rw [val_main_v47_apply, val_main_v46_apply, val_main_call0_v0_apply, val_main_call0_cst_apply, hi, afterFirst_ref]
  show max _ (Ideal.ofBits .f32 0x00000000#32) = _
  rw [Ideal.ofBits_zero_f32]

/-- One edge's term of the long sum is the edge's violation. -/
theorem edge_ref (e : Fin 3200000) :
    val_main_v50 (F := Ideal) x0 x1 x2 (ix2 e (0 : Fin 1)) = violationAt x0 (val_main_v23 (F := Ideal) x1 x2) e := by
  have h1 : idx_main_v24 (ix2 e (0 : Fin 1)) = ix1 e := funext fun a => Fin.ext (by match a with | ⟨0, _⟩ => rfl)
  have h2 : idx_main_v49 (ix2 e (0 : Fin 1)) = ix1 e := funext fun a => Fin.ext (by match a with | ⟨0, _⟩ => rfl)
  have h3 : ∀ k : Fin 4, idx_main_v48 (ix1 e) k = ix2 e k := fun k =>
    funext fun a => Fin.ext (by match a with | ⟨0, _⟩ => rfl | ⟨1, _⟩ => rfl)
  rw [val_main_v50_apply, val_main_v24_apply, val_main_v49_apply, val_main_v48_apply, val_main_cst_9_apply, h1, h2]
  unfold violationAt edgeViolation
  show val_main_v23 (F := Ideal) x1 x2 (ix1 e) * (Ideal.ofBits .f32 0x00000000#32 + _) = _
  rw [Ideal.ofBits_zero_f32, zero_add]
  refine congrArg (val_main_v23 (F := Ideal) x1 x2 (ix1 e) * ·) (Finset.sum_congr rfl fun k _ => ?_)
  rw [h3 k, relu_ref]

/-- The second result is the mean violation. -/
theorem viol_ref (i : S_.Idx) :
    val_main_v59 (F := Ideal) x0 x1 x2 i = meanViolation x0 (val_main_v23 (F := Ideal) x1 x2) := by
  rw [val_main_v59_apply, val_main_v51_apply, val_main_cst_10_apply, val_main_cst_12_apply]
  unfold meanViolation
  show Ideal.div (Ideal.ofBits .f32 0x00000000#32 + ∑ j : (⟨2, ![3200000, 1]⟩ : Shape).Idx, val_main_v50 (F := Ideal) x0 x1 x2 j)
    (Ideal.ofBits .f32 0x4A435000#32) = _
  rw [sum_idx2]
  refine congrArg (fun s => Ideal.div (Ideal.ofBits .f32 0x00000000#32 + s) (Ideal.ofBits .f32 0x4A435000#32))
    (Finset.sum_congr rfl fun e _ => ?_)
  rw [Fin.sum_univ_one, edge_ref]

end Cert.ReferenceIdeal.RefValue

end
-- ==== Proof.lean ====
/-
  The certificate's claim, assembled.

  Both programs compute, over the extended reals,
    * the table of logits with two penalties subtracted per entry, (x - (100 · a) · [c ≥ 1]) - (50 · b) · [c ≥ 2], where
      a and b are the edge's two marks, and
    * the mean over all 3200000 edges of a · Σ_{c = 1..4} max (x - (100 · a) · [c ≥ 1], 0).
  The kernel walks the edges 6400 at a time, carrying the partial sum from grid point to grid point and dividing at the
  end; the reference sums all the edges at once. Addition of extended reals is commutative and associative without side
  conditions, so the two groupings agree and the precondition (finite logits) is never opened. The three frames are the
  generated runs; the idealization rewrote nothing, so there is nothing to preserve.
-/
import proofs.«168607_j33887291965649_1_alg».proof.Defs
import proofs.«168607_j33887291965649_1_alg».proof.Proof.Gen.Kernel
import proofs.«168607_j33887291965649_1_alg».proof.Proof.Gen.Kernel.Frame
import proofs.«168607_j33887291965649_1_alg».proof.Proof.Gen.KernelIdeal
import proofs.«168607_j33887291965649_1_alg».proof.Proof.Gen.KernelIdeal.Frame
import proofs.«168607_j33887291965649_1_alg».proof.Proof.Gen.ReferenceIdeal
import proofs.«168607_j33887291965649_1_alg».proof.Proof.Gen.ReferenceIdeal.Run
import proofs.«168607_j33887291965649_1_alg».proof.Proof.Gen.ReferenceIdeal.Read
import proofs.«168607_j33887291965649_1_alg».proof.Proof.Gen.Pre_finite_inputs
import proofs.«168607_j33887291965649_1_alg».proof.Proof.KernelValue
import proofs.«168607_j33887291965649_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories that agree on the arguments both programs end at the penalised table and the mean violation of those
    arguments: the kernel by its run over the grid, the reference stage by stage. -/
theorem algebraic : Cert.algebraic_KernelIdeal_ReferenceIdeal := by
  intro m ρ m' ρ' _ hagree
  refine ⟨fun c => Cert.KernelIdeal.Grid.table m c, fun c => Cert.KernelIdeal.Result.mean m c,
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v58_eq, Cert.ReferenceIdeal.RefValue.out_ref,
      (hagree c).1, (hagree c).2.1, (hagree c).2.2]
  · rw [(h c).2.1, Cert.ReferenceIdeal.Read.val_main_v59_eq]
    funext i
    rw [Cert.ReferenceIdeal.RefValue.viol_ref, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
